-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S40x64 : Shape := ⟨2, ![40, 64]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x64 .f32) (main_arg1 : IVec S2x1280000 32) (main_arg2 : FVec F S40x64 .f32) (main_arg3 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x64 : Shape := ⟨2, ![100000, 64]⟩
abbrev S2x1280000 : Shape := ⟨2, ![2, 1280000]⟩
abbrev S40x64 : Shape := ⟨2, ![40, 64]⟩
abbrev S40 : Shape := ⟨1, ![40]⟩
abbrev S1x1280000 : Shape := ⟨2, ![1, 1280000]⟩
abbrev S1280000 : Shape := ⟨1, ![1280000]⟩
abbrev S100000 : Shape := ⟨1, ![100000]⟩
abbrev S1380000 : Shape := ⟨1, ![1380000]⟩
abbrev S_ : Shape := ⟨0, ![]⟩
abbrev S1380000x1 : Shape := ⟨2, ![1380000, 1]⟩
abbrev S1380000x64 : Shape := ⟨2, ![1380000, 64]⟩
abbrev S100000x40 : Shape := ⟨2, ![100000, 40]⟩
abbrev S2000x64 : Shape := ⟨2, ![2000, 64]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 94
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S40x64, .f32⟩
  | .hbm, ⟨3, _⟩ => ⟨S40, .f32⟩
  | .hbm, ⟨4, _⟩ => ⟨S1x1280000, .i32⟩
  | .hbm, ⟨5, _⟩ => ⟨S1280000, .i32⟩
  | .hbm, ⟨6, _⟩ => ⟨S1x1280000, .i32⟩
  | .hbm, ⟨7, _⟩ => ⟨S1280000, .i32⟩
  | .hbm, ⟨8, _⟩ => ⟨S100000, .i32⟩
  | .hbm, ⟨9, _⟩ => ⟨S1380000, .i32⟩
  | .hbm, ⟨10, _⟩ => ⟨S1380000, .i32⟩
  | .hbm, ⟨11, _⟩ => ⟨S_, .f32⟩
  | .hbm, ⟨12, _⟩ => ⟨S1380000, .f32⟩
  | .hbm, ⟨13, _⟩ => ⟨S_, .f32⟩
  | .hbm, ⟨14, _⟩ => ⟨S100000, .f32⟩
  | .hbm, ⟨15, _⟩ => ⟨S1380000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1380000, .i32⟩
  | .hbm, ⟨27, _⟩ => ⟨S1380000, .i1⟩
  | .hbm, ⟨28, _⟩ => ⟨S_, .i32⟩
  | .hbm, ⟨29, _⟩ => ⟨S1380000, .i32⟩
  | .hbm, ⟨30, _⟩ => ⟨S1380000, .i32⟩
  | .hbm, ⟨31, _⟩ => ⟨S1380000, .i32⟩
  | .hbm, ⟨32, _⟩ => ⟨S1380000x1, .i32⟩
  | .hbm, ⟨33, _⟩ => ⟨S1380000, .f32⟩
  | .hbm, ⟨34, _⟩ => ⟨S1380000, .f32⟩
  | .hbm, ⟨35, _⟩ => ⟨S_, .i32⟩
  | .hbm, ⟨36, _⟩ => ⟨S1380000, .i32⟩
  | .hbm, ⟨37, _⟩ => ⟨S1380000, .i1⟩
  | .hbm, ⟨38, _⟩ => ⟨S_, .i32⟩
  | .hbm, ⟨39, _⟩ => ⟨S1380000, .i32⟩
  | .hbm, ⟨40, _⟩ => ⟨S1380000, .i32⟩
  | .hbm, ⟨41, _⟩ => ⟨S1380000, .i32⟩
  | .hbm, ⟨42, _⟩ => ⟨S1380000x1, .i32⟩
  | .hbm, ⟨43, _⟩ => ⟨S1380000, .f32⟩
  | .hbm, ⟨44, _⟩ => ⟨S1380000, .f32⟩
  | .hbm, ⟨45, _⟩ => ⟨S1380000x1, .f32⟩
  | .hbm, ⟨46, _⟩ => ⟨S_, .i32⟩
  | .hbm, ⟨47, _⟩ => ⟨S1380000, .i32⟩
  | .hbm, ⟨48, _⟩ => ⟨S1380000, .i1⟩
  | .hbm, ⟨49, _⟩ => ⟨S_, .i32⟩
  | .hbm, ⟨50, _⟩ => ⟨S1380000, .i32⟩
  | .hbm, ⟨51, _⟩ => ⟨S1380000, .i32⟩
  | .hbm, ⟨52, _⟩ => ⟨S1380000, .i32⟩
  | .hbm, ⟨53, _⟩ => ⟨S1380000x1, .i32⟩
  | .hbm, ⟨54, _⟩ => ⟨S1380000x64, .f32⟩
  | .hbm, ⟨55, _⟩ => ⟨S1380000x64, .f32⟩
  | .hbm, ⟨56, _⟩ => ⟨S1380000x64, .f32⟩
  | .hbm, ⟨57, _⟩ => ⟨S_, .f32⟩
  | .hbm, ⟨58, _⟩ => ⟨S100000x64, .f32⟩
  | .hbm, ⟨59, _⟩ => ⟨S1380000x1, .i32⟩
  | .hbm, ⟨60, _⟩ => ⟨S100000x64, .f32⟩
  | .hbm, ⟨61, _⟩ => ⟨S1380000x1, .f32⟩
  | .hbm, ⟨62, _⟩ => ⟨S_, .i32⟩
  | .hbm, ⟨63, _⟩ => ⟨S1380000, .i32⟩
  | .hbm, ⟨64, _⟩ => ⟨S1380000, .i1⟩
  | .hbm, ⟨65, _⟩ => ⟨S_, .i32⟩
  | .hbm, ⟨66, _⟩ => ⟨S1380000, .i32⟩
  | .hbm, ⟨67, _⟩ => ⟨S1380000, .i32⟩
  | .hbm, ⟨68, _⟩ => ⟨S1380000, .i32⟩
  | .hbm, ⟨69, _⟩ => ⟨S1380000x1, .i32⟩
  | .hbm, ⟨70, _⟩ => ⟨S1380000x64, .f32⟩
  | .hbm, ⟨71, _⟩ => ⟨S1380000x64, .f32⟩
  | .hbm, ⟨72, _⟩ => ⟨S1380000x64, .f32⟩
  | .hbm, ⟨73, _⟩ => ⟨S_, .f32⟩
  | .hbm, ⟨74, _⟩ => ⟨S100000x64, .f32⟩
  | .hbm, ⟨75, _⟩ => ⟨S1380000x1, .i32⟩
  | .hbm, ⟨76, _⟩ => ⟨S100000x64, .f32⟩
  | .hbm, ⟨77, _⟩ => ⟨S1380000x1, .f32⟩
  | .hbm, ⟨78, _⟩ => ⟨S_, .i32⟩
  | .hbm, ⟨79, _⟩ => ⟨S1380000, .i32⟩
  | .hbm, ⟨80, _⟩ => ⟨S1380000, .i1⟩
  | .hbm, ⟨81, _⟩ => ⟨S_, .i32⟩
  | .hbm, ⟨82, _⟩ => ⟨S1380000, .i32⟩
  | .hbm, ⟨83, _⟩ => ⟨S1380000, .i32⟩
  | .hbm, ⟨84, _⟩ => ⟨S1380000, .i32⟩
  | .hbm, ⟨85, _⟩ => ⟨S1380000x1, .i32⟩
  | .hbm, ⟨86, _⟩ => ⟨S1380000x64, .f32⟩
  | .hbm, ⟨87, _⟩ => ⟨S1380000x64, .f32⟩
  | .hbm, ⟨88, _⟩ => ⟨S1380000x64, .f32⟩
  | .hbm, ⟨89, _⟩ => ⟨S_, .f32⟩
  | .hbm, ⟨90, _⟩ => ⟨S100000x64, .f32⟩
  | .hbm, ⟨91, _⟩ => ⟨S1380000x1, .i32⟩
  | .hbm, ⟨92, _⟩ => ⟨S100000x64, .f32⟩
  | .hbm, ⟨93, _⟩ => ⟨S100000x40, .f32⟩
  | .local _ .vmem, ⟨0, _⟩ => ⟨S2000x64, .f32⟩
  | .local _ .vmem, ⟨1, _⟩ => ⟨S2000x64, .f32⟩
  | .local _ .vmem, ⟨2, _⟩ => ⟨S40x64, .f32⟩
  | .local _ .vmem, ⟨3, _⟩ => ⟨S40, .f32⟩
  | .local _ .vmem, ⟨4, _⟩ => ⟨S2000x40, .f32⟩
  | .local _ .vmem, ⟨5, _⟩ => ⟨S2000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S100000_S1380000_d0 : Shape.Concatenates [S1280000, S100000] S1380000 0
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S2000x64_S40x64_S2000x40_1_1_0_0_n_n_wf : DotDims.WF S2000x64 S40x64 S2000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x64.size a ≤ S40x64.size a
  hwx0_1 : ∀ i : grid0.Coords, EltTy.bits .f32 = 32 ∨ (Rect.block (s := S40x64) S40x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x40.size a ≤ S100000x40.size a
  hwx0_3 : ∀ i : grid0.Coords, EltTy.bits .f32 = 32 ∨ (Rect.block (s := S100000x40) S2000x40.size (cc0_transform_3 i) (hinb0_3 i)).WholeWords (EltTy.packing .f32)

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S2000x64_S40x64_S2000x40_1_1_0_0_n_n : DotDims S2000x64 S40x64 S2000x40 where
  lhsContracting := [1]
  rhsContracting := [1]
  lhsNonContracting := [0]
  rhsNonContracting := [0]
  lhsBatch := []
  rhsBatch := []
  wf := dot_S2000x64_S40x64_S2000x40_1_1_0_0_n_n_wf

abbrev win0_0 : Pipeline.Window sig grid0 :=
  Pipeline.Window.ofSpec (Memref.whole main_v69) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S2000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S40x64 : Shape := ⟨2, ![40, 64]⟩
abbrev S40 : Shape := ⟨1, ![40]⟩
abbrev S1x1280000 : Shape := ⟨2, ![1, 1280000]⟩
abbrev S1280000 : Shape := ⟨1, ![1280000]⟩
abbrev S100000 : Shape := ⟨1, ![100000]⟩
abbrev S1380000 : Shape := ⟨1, ![1380000]⟩
abbrev S_ : Shape := ⟨0, ![]⟩
abbrev S1380000x1 : Shape := ⟨2, ![1380000, 1]⟩
abbrev S1380000x64 : Shape := ⟨2, ![1380000, 64]⟩
abbrev S64x40 : Shape := ⟨2, ![64, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S40x64, .f32⟩
  | .hbm, ⟨3, _⟩ => ⟨S40, .f32⟩
  | .hbm, ⟨4, _⟩ => ⟨S1x1280000, .i32⟩
  | .hbm, ⟨5, _⟩ => ⟨S1280000, .i32⟩
  | .hbm, ⟨6, _⟩ => ⟨S1x1280000, .i32⟩
  | .hbm, ⟨7, _⟩ => ⟨S1280000, .i32⟩
  | .hbm, ⟨8, _⟩ => ⟨S100000, .i32⟩
  | .hbm, ⟨9, _⟩ => ⟨S1380000, .i32⟩
  | .hbm, ⟨10, _⟩ => ⟨S1380000, .i32⟩
  | .hbm, ⟨11, _⟩ => ⟨S_, .f32⟩
  | .hbm, ⟨12, _⟩ => ⟨S1380000, .f32⟩
  | .hbm, ⟨13, _⟩ => ⟨S_, .f32⟩
  | .hbm, ⟨14, _⟩ => ⟨S100000, .f32⟩
  | .hbm, ⟨15, _⟩ => ⟨S1380000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1380000, .i32⟩
  | .hbm, ⟨27, _⟩ => ⟨S1380000, .i1⟩
  | .hbm, ⟨28, _⟩ => ⟨S_, .i32⟩
  | .hbm, ⟨29, _⟩ => ⟨S1380000, .i32⟩
  | .hbm, ⟨30, _⟩ => ⟨S1380000, .i32⟩
  | .hbm, ⟨31, _⟩ => ⟨S1380000, .i32⟩
  | .hbm, ⟨32, _⟩ => ⟨S1380000x1, .i32⟩
  | .hbm, ⟨33, _⟩ => ⟨S1380000, .f32⟩
  | .hbm, ⟨34, _⟩ => ⟨S1380000, .f32⟩
  | .hbm, ⟨35, _⟩ => ⟨S_, .i32⟩
  | .hbm, ⟨36, _⟩ => ⟨S1380000, .i32⟩
  | .hbm, ⟨37, _⟩ => ⟨S1380000, .i1⟩
  | .hbm, ⟨38, _⟩ => ⟨S_, .i32⟩
  | .hbm, ⟨39, _⟩ => ⟨S1380000, .i32⟩
  | .hbm, ⟨40, _⟩ => ⟨S1380000, .i32⟩
  | .hbm, ⟨41, _⟩ => ⟨S1380000, .i32⟩
  | .hbm, ⟨42, _⟩ => ⟨S1380000x1, .i32⟩
  | .hbm, ⟨43, _⟩ => ⟨S1380000, .f32⟩
  | .hbm, ⟨44, _⟩ => ⟨S1380000, .f32⟩
  | .hbm, ⟨45, _⟩ => ⟨S1380000x1, .f32⟩
  | .hbm, ⟨46, _⟩ => ⟨S_, .i32⟩
  | .hbm, ⟨47, _⟩ => ⟨S1380000, .i32⟩
  | .hbm, ⟨48, _⟩ => ⟨S1380000, .i1⟩
  | .hbm, ⟨49, _⟩ => ⟨S_, .i32⟩
  | .hbm, ⟨50, _⟩ => ⟨S1380000, .i32⟩
  | .hbm, ⟨51, _⟩ => ⟨S1380000, .i32⟩
  | .hbm, ⟨52, _⟩ => ⟨S1380000, .i32⟩
  | .hbm, ⟨53, _⟩ => ⟨S1380000x1, .i32⟩
  | .hbm, ⟨54, _⟩ => ⟨S1380000x64, .f32⟩
  | .hbm, ⟨55, _⟩ => ⟨S1380000x64, .f32⟩
  | .hbm, ⟨56, _⟩ => ⟨S1380000x64, .f32⟩
  | .hbm, ⟨57, _⟩ => ⟨S_, .f32⟩
  | .hbm, ⟨58, _⟩ => ⟨S100000x64, .f32⟩
  | .hbm, ⟨59, _⟩ => ⟨S1380000x1, .i32⟩
  | .hbm, ⟨60, _⟩ => ⟨S100000x64, .f32⟩
  | .hbm, ⟨61, _⟩ => ⟨S1380000x1, .f32⟩
  | .hbm, ⟨62, _⟩ => ⟨S_, .i32⟩
  | .hbm, ⟨63, _⟩ => ⟨S1380000, .i32⟩
  | .hbm, ⟨64, _⟩ => ⟨S1380000, .i1⟩
  | .hbm, ⟨65, _⟩ => ⟨S_, .i32⟩
  | .hbm, ⟨66, _⟩ => ⟨S1380000, .i32⟩
  | .hbm, ⟨67, _⟩ => ⟨S1380000, .i32⟩
  | .hbm, ⟨68, _⟩ => ⟨S1380000, .i32⟩
  | .hbm, ⟨69, _⟩ => ⟨S1380000x1, .i32⟩
  | .hbm, ⟨70, _⟩ => ⟨S1380000x64, .f32⟩
  | .hbm, ⟨71, _⟩ => ⟨S1380000x64, .f32⟩
  | .hbm, ⟨72, _⟩ => ⟨S1380000x64, .f32⟩
  | .hbm, ⟨73, _⟩ => ⟨S_, .f32⟩
  | .hbm, ⟨74, _⟩ => ⟨S100000x64, .f32⟩
  | .hbm, ⟨75, _⟩ => ⟨S1380000x1, .i32⟩
  | .hbm, ⟨76, _⟩ => ⟨S100000x64, .f32⟩
  | .hbm, ⟨77, _⟩ => ⟨S1380000x1, .f32⟩
  | .hbm, ⟨78, _⟩ => ⟨S_, .i32⟩
  | .hbm, ⟨79, _⟩ => ⟨S1380000, .i32⟩
  | .hbm, ⟨80, _⟩ => ⟨S1380000, .i1⟩
  | .hbm, ⟨81, _⟩ => ⟨S_, .i32⟩
  | .hbm, ⟨82, _⟩ => ⟨S1380000, .i32⟩
  | .hbm, ⟨83, _⟩ => ⟨S1380000, .i32⟩
  | .hbm, ⟨84, _⟩ => ⟨S1380000, .i32⟩
  | .hbm, ⟨85, _⟩ => ⟨S1380000x1, .i32⟩
  | .hbm, ⟨86, _⟩ => ⟨S1380000x64, .f32⟩
  | .hbm, ⟨87, _⟩ => ⟨S1380000x64, .f32⟩
  | .hbm, ⟨88, _⟩ => ⟨S1380000x64, .f32⟩
  | .hbm, ⟨89, _⟩ => ⟨S_, .f32⟩
  | .hbm, ⟨90, _⟩ => ⟨S100000x64, .f32⟩
  | .hbm, ⟨91, _⟩ => ⟨S1380000x1, .i32⟩
  | .hbm, ⟨92, _⟩ => ⟨S100000x64, .f32⟩
  | .hbm, ⟨93, _⟩ => ⟨S64x40, .f32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x40, .f32⟩
  | .hbm, ⟨105, _⟩ => ⟨S100000x40, .f32⟩
  | .hbm, ⟨106, _⟩ => ⟨S100000x40, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x40, .f32⟩
  | .hbm, ⟨112, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v75 : Ref sig .tc := ⟨.hbm, 112, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S100000_S1380000_d0 : Shape.Concatenates [S1280000, S100000] S1380000 0
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S100000x64_S64x40_S100000x40_1_0_0_1_n_n_wf : DotDims.WF S100000x64 S64x40 S100000x40 [1] [0] [0] [1] [] []

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«119922_j77129022701608_1_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibLogSoftmax.lean ====
/-
  The logarithm of a row-wise softmax, read one entry at a time at the exact (extended-real) values.

  For a row f of C numbers let  m = max(−∞, f 0, …, f (C−1))  and
      logSoftmax f c = (f c − m) − log Σ_k exp (f k − m).
  Applied to every row of an M×C array this is one whole-array function, and entry (p, q) sees the array only
  through its row p.  Two spellings are identified with it, for every M and C:  the vector unit's (a lane maximum
  folded from the word of −∞, recast as a column and spread back over the lanes, a subtraction, the exponential, a
  lane sum, its logarithm as a column spread back, a subtraction), and the host's (the same steps as whole-array
  operations, with one more maximum against an array that holds −∞ everywhere).  The maximum is a fold of max that
  starts at −∞, so it is at least −∞ and the host's extra maximum changes nothing;  both sums are the plain sum over
  the C lanes.  Nothing is cancelled or distributed, so no finiteness of the entries is used.
-/
import Idealize.ShloMosaic.Lib.ValueIdx
import Idealize.ShloMosaic.Lib.Pipeline.Value
import Idealize.ShloMosaic.PureOps.Ideal.Laws
import proofs.«119922_j77129022701608_1_alg».proof.Proof.LibColumn

noncomputable section

open scoped BigOperators

namespace Cert.LogSoftmax

open Idealize.ShloMosaic Idealize.ShloMosaic.ValueIdx Cert.Column

/-! ## The function -/

/-- −∞, as the value of the f32 word both programs start their maxima from. -/
def negInf : EReal := Ideal.ofBits .f32 0xFF800000#32

/-- The maximum of a row, folded from −∞. -/
def rowMax {C : Nat} (f : Fin C → EReal) : EReal := (Finset.univ : Finset (Fin C)).fold max negInf f

/-- Entry c of the logarithm of the softmax of a row. -/
def logSoftmax {C : Nat} (f : Fin C → EReal) (c : Fin C) : EReal :=
  (f c - rowMax f) - Ideal.log (∑ k : Fin C, Ideal.exp (f k - rowMax f))

/-- A fold of max is at least the value it starts from. -/
theorem negInf_le_rowMax {C : Nat} (f : Fin C → EReal) : negInf ≤ rowMax f :=
  (Finset.le_fold_max _).2 (Or.inl le_rfl)

/-- So one more maximum against −∞ changes nothing. -/
theorem max_negInf_rowMax {C : Nat} (f : Fin C → EReal) : max negInf (rowMax f) = rowMax f :=
  max_eq_right (negInf_le_rowMax f)

/-! ## Reductions along the lanes of an M×C array -/

/-- The row index p with the lane k put back is (p, k). -/
theorem lift_row {M C : Nat} (h : (⟨2, ![M, C]⟩ : Shape).Reduces [1] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

/-- The vector unit's lane maximum from the word of −∞, at row p: the row's maximum. -/
theorem laneMax_apply {M C : Nat} (src : FVec Ideal (⟨2, ![M, C]⟩ : Shape) .f32)
    (h : (⟨2, ![M, C]⟩ : Shape).Reduces [1] (⟨1, ![M]⟩ : Shape)) (hφ : FKind.Formats .f32)
    (hacc : (0xFF800000#32 : BitVec 32) = FKind.maximumf.neutral .f32 hφ) (p : Fin M) :
    multiReduction .maximumf [1] (⟨1, ![M]⟩ : Shape) src 0xFF800000#32 h hφ hacc (ix1 p) = rowMax fun c => src (ix2 p c) := by
  rw [Ideal.multiReduction_maximumf_single]
  have hf : (src ∘ h.lift (ix1 p)) = fun k : Fin C => src (ix2 p k) := funext fun k => congrArg src (lift_row h p k)
  exact congrArg (fun f => Finset.fold max (Ideal.ofBits .f32 0xFF800000#32) f (Finset.univ : Finset (Fin C))) hf

/-- The vector unit's lane sum from the zero word, at row p: the sum over the row. -/
theorem laneSum_apply {M C : Nat} (src : FVec Ideal (⟨2, ![M, C]⟩ : Shape) .f32)
    (h : (⟨2, ![M, C]⟩ : Shape).Reduces [1] (⟨1, ![M]⟩ : Shape)) (hφ : FKind.Formats .f32)
    (hacc : (0x00000000#32 : BitVec 32) = FKind.add.neutral .f32 hφ) (p : Fin M) :
    multiReduction .add [1] (⟨1, ![M]⟩ : Shape) src 0x00000000#32 h hφ hacc (ix1 p) = ∑ c : Fin C, src (ix2 p c) := by
  rw [Ideal.multiReduction_add_single]
  exact Finset.sum_congr rfl fun k _ => congrArg src (lift_row h p k)

/-- The host's maximum-reduce from −∞ along the lanes, at row p: the row's maximum. -/
theorem hostMax_apply {M C : Nat} (x : FVec Ideal (⟨2, ![M, C]⟩ : Shape) .f32)
    (h' : (⟨2, ![M, C]⟩ : Shape).ReducesTo [1] (⟨1, ![M]⟩ : Shape)) (h : (⟨2, ![M, C]⟩ : Shape).Reduces [1] (⟨1, ![M]⟩ : Shape))
    (hu : 0 < (⟨0, ![]⟩ : Shape).numel) (p : Fin M) :
    Host.reduce FloatOps.maximumf x (constant (F := Ideal) (⟨0, ![]⟩ : Shape) .f32 0xFF800000#32) h' hu (ix1 p)
      = rowMax fun c => x (ix2 p c) := by
  rw [Host.reduce_eq_fold_single FloatOps.maximumf x _ h' h hu]
  have hf : (x ∘ h.lift (ix1 p)) = fun k : Fin C => x (ix2 p k) := funext fun k => congrArg x (lift_row h p k)
  exact congrArg (fun f => Finset.fold max (Ideal.ofBits .f32 0xFF800000#32) f (Finset.univ : Finset (Fin C))) hf

/-- The host's sum from zero along the lanes, at row p: the sum over the row. -/
theorem hostSum_apply {M C : Nat} (x : FVec Ideal (⟨2, ![M, C]⟩ : Shape) .f32)
    (h' : (⟨2, ![M, C]⟩ : Shape).ReducesTo [1] (⟨1, ![M]⟩ : Shape)) (h : (⟨2, ![M, C]⟩ : Shape).Reduces [1] (⟨1, ![M]⟩ : Shape))
    (hu : 0 < (⟨0, ![]⟩ : Shape).numel) (p : Fin M) :
    Host.reduceAdd x (constant (F := Ideal) (⟨0, ![]⟩ : Shape) .f32 0x00000000#32) h' hu (ix1 p) = ∑ c : Fin C, x (ix2 p c) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## The host's three spreads, read at an index -/

variable {α : Type}

/-- A scalar spread over a length-M vector reads the scalar everywhere. -/
theorem spread_scalar_apply {M : Nat} (v : (⟨0, ![]⟩ : Shape).Idx → α)
    (h : (⟨0, ![]⟩ : Shape).BroadcastsInDim (⟨1, ![M]⟩ : Shape) ![]) (p : Fin M) :
    broadcastInDim (⟨1, ![M]⟩ : Shape) ![] h v (ix1 p) = v ix0 :=
  broadcastInDim_apply _ h v _ _ fun a => a.elim0

/-- A length-M vector placed on axis 0 of an M×1 column reads, at (p, u), the vector at p. -/
theorem spread_vec_col_apply {M : Nat} (v : (⟨1, ![M]⟩ : Shape).Idx → α)
    (h : (⟨1, ![M]⟩ : Shape).BroadcastsInDim (⟨2, ![M, 1]⟩ : Shape) ![0]) (p : Fin M) (u : Fin 1) :
    broadcastInDim (⟨2, ![M, 1]⟩ : Shape) ![0] h v (ix2 p u) = v (ix1 p) := by
  refine broadcastInDim_apply _ h v _ _ fun a => ?_
  match a with
  | ⟨0, _⟩ =>
    show p.val = if M = 1 then 0 else p.val
    split
    · have := p.isLt; omega
    · rfl

/-- An M×1 column spread over C lanes reads, at (p, q), the column at (p, 0). -/
theorem spread_col_apply {M C : Nat} (v : (⟨2, ![M, 1]⟩ : Shape).Idx → α)
    (h : (⟨2, ![M, 1]⟩ : Shape).BroadcastsInDim (⟨2, ![M, C]⟩ : Shape) ![0, 1]) (p : Fin M) (q : Fin C) :
    broadcastInDim (⟨2, ![M, C]⟩ : Shape) ![0, 1] h v (ix2 p q) = v (ix2 p (0 : Fin 1)) := by
  refine broadcastInDim_apply _ h v _ _ fun a => ?_
  match a with
  | ⟨0, _⟩ =>
    show p.val = if M = 1 then 0 else p.val
    split
    · have := p.isLt; omega
    · rfl
  | ⟨1, _⟩ =>
    show (0 : Nat) = if (1 : Nat) = 1 then 0 else q.val
    rw [if_pos rfl]

/-! ## The vector unit's spelling -/

/-- The array minus its lane maximum, the maximum recast as a column and spread back over the lanes. -/
def vectorShift {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  subf L (broadcastTo ⟨2, ![M, C]⟩ (shapeCast ⟨2, ![M, 1]⟩ (multiReduction .maximumf [1] (⟨1, ![M]⟩ : Shape) L 0xFF800000#32 hr hφ hmax) hc) hb)

/-- The shifted array minus the logarithm of the lane sum of its exponential, again as a column spread back. -/
def vectorForm {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  subf (vectorShift L hr hφ hmax hc hb)
    (broadcastTo ⟨2, ![M, C]⟩ (log (shapeCast ⟨2, ![M, 1]⟩
      (multiReduction .add [1] (⟨1, ![M]⟩ : Shape) (exp (vectorShift L hr hφ hmax hc hb)) 0x00000000#32 hr hφ hadd) hc)) hb)

theorem vectorShift_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (c : Fin C) :
    vectorShift L hr hφ hmax hc hb (ix2 p c) = L (ix2 p c) - rowMax fun k => L (ix2 p k) := by
  unfold vectorShift
  rw [subf_apply, broadcastTo_a1_ab_apply, shapeCast_a_a1_apply, laneMax_apply]

/-- The vector unit's spelling, at entry (p, q), is the logarithm of the softmax of row p at q. -/
theorem vectorForm_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    vectorForm L hr hφ hmax hadd hc hb (ix2 p q) = logSoftmax (fun c => L (ix2 p c)) q := by
  have hsum : multiReduction .add [1] (⟨1, ![M]⟩ : Shape) (exp (vectorShift L hr hφ hmax hc hb)) 0x00000000#32 hr hφ hadd (ix1 p)
      = ∑ k : Fin C, Ideal.exp (L (ix2 p k) - rowMax fun c => L (ix2 p c)) := by
    rw [laneSum_apply]
    exact Finset.sum_congr rfl fun k _ => congrArg Ideal.exp (vectorShift_apply L hr hφ hmax hc hb p k)
  unfold vectorForm
  rw [subf_apply, vectorShift_apply, broadcastTo_a1_ab_apply]
  show _ - Ideal.log (shapeCast ⟨2, ![M, 1]⟩
    (multiReduction .add [1] (⟨1, ![M]⟩ : Shape) (exp (vectorShift L hr hφ hmax hc hb)) 0x00000000#32 hr hφ hadd) hc (ix2 p (0 : Fin 1))) = _
  rw [shapeCast_a_a1_apply, hsum]
  rfl

/-! ## The host's spelling -/

/-- The array minus its row maximum: the maximum-reduce, one more maximum against −∞ everywhere, placed on a column
    and spread back over the lanes. -/
def hostShift {M C : Nat} (x : FVec Ideal (⟨2, ![M, C]⟩ : Shape) .f32)
    (h' : (⟨2, ![M, C]⟩ : Shape).ReducesTo [1] (⟨1, ![M]⟩ : Shape)) (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) :
    FVec Ideal (⟨2, ![M, C]⟩ : Shape) .f32 :=
  subf x (broadcastInDim (⟨2, ![M, C]⟩ : Shape) ![0, 1] b2 (broadcastInDim (⟨2, ![M, 1]⟩ : Shape) ![0] b1
    (maximumf (broadcastInDim (⟨1, ![M]⟩ : Shape) ![] b0 (constant (F := Ideal) (⟨0, ![]⟩ : Shape) .f32 0xFF800000#32))
      (Host.reduce FloatOps.maximumf x (constant (F := Ideal) (⟨0, ![]⟩ : Shape) .f32 0xFF800000#32) h' hu))))

/-- The shifted array minus the logarithm of the row sum of its exponential, on a column spread back. -/
def hostForm {M C : Nat} (x : FVec Ideal (⟨2, ![M, C]⟩ : Shape) .f32)
    (h' : (⟨2, ![M, C]⟩ : Shape).ReducesTo [1] (⟨1, ![M]⟩ : Shape)) (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) :
    FVec Ideal (⟨2, ![M, C]⟩ : Shape) .f32 :=
  subf (hostShift x h' hu b0 b1 b2)
    (broadcastInDim (⟨2, ![M, C]⟩ : Shape) ![0, 1] b2 (Host.log (broadcastInDim (⟨2, ![M, 1]⟩ : Shape) ![0] b1
      (Host.reduceAdd (Host.exp (hostShift x h' hu b0 b1 b2)) (constant (F := Ideal) (⟨0, ![]⟩ : Shape) .f32 0x00000000#32) h' hu))))

theorem hostShift_apply {M C : Nat} (x : FVec Ideal (⟨2, ![M, C]⟩ : Shape) .f32)
    (h' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) (p : Fin M) (c : Fin C) :
    hostShift x h' hu b0 b1 b2 (ix2 p c) = x (ix2 p c) - rowMax fun k => x (ix2 p k) := by
  unfold hostShift
  rw [subf_apply, spread_col_apply, spread_vec_col_apply, maximumf_apply, spread_scalar_apply, hostMax_apply x h' hr hu p]
  exact congrArg (x (ix2 p c) - ·) (max_negInf_rowMax _)

/-- The host's spelling, at entry (p, q), is the logarithm of the softmax of row p at q. -/
theorem hostForm_apply {M C : Nat} (x : FVec Ideal (⟨2, ![M, C]⟩ : Shape) .f32)
    (h' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) (p : Fin M) (q : Fin C) :
    hostForm x h' hu b0 b1 b2 (ix2 p q) = logSoftmax (fun c => x (ix2 p c)) q := by
  have hsum : Host.reduceAdd (Host.exp (hostShift x h' hu b0 b1 b2)) (constant (F := Ideal) (⟨0, ![]⟩ : Shape) .f32 0x00000000#32) h' hu (ix1 p)
      = ∑ k : Fin C, Ideal.exp (x (ix2 p k) - rowMax fun c => x (ix2 p c)) := by
    rw [hostSum_apply _ h' hr hu p]
    exact Finset.sum_congr rfl fun k _ => congrArg Ideal.exp (hostShift_apply x h' hr hu b0 b1 b2 p k)
  unfold hostForm
  rw [subf_apply, hostShift_apply x h' hr hu b0 b1 b2 p q, spread_col_apply]
  show _ - Ideal.log (broadcastInDim (⟨2, ![M, 1]⟩ : Shape) ![0] b1
    (Host.reduceAdd (Host.exp (hostShift x h' hu b0 b1 b2)) (constant (F := Ideal) (⟨0, ![]⟩ : Shape) .f32 0x00000000#32) h' hu) (ix2 p (0 : Fin 1))) = _
  rw [spread_vec_col_apply, hsum]
  rfl

end Cert.LogSoftmax

end
-- ==== Proof.Spec.lean ====
/-
  The dense tail as one whole-array function:  an affine score of each row of features against a table of class
  weights, then the logarithm of the row's softmax.

  For features h (M × D), weights W (C × D) and a bias b (C numbers)
      logit(p, c) = Σ_d h(p, d) · W(c, d) + b(c),        classify h W b (p, q) = logSoftmax (logit(p, ·)) q.
  Entry (p, q) sees h only through its row p, so the function of a block of rows is the same block of the function of
  the whole array:  computing block of rows by block of rows and computing whole agree.
-/
import proofs.«119922_j77129022701608_1_alg».proof.Proof.LibGatedMix
import proofs.«119922_j77129022701608_1_alg».proof.Proof.LibLogSoftmax

noncomputable section

open scoped BigOperators

namespace Cert.DenseTail

open Idealize.ShloMosaic Idealize.ShloMosaic.ValueIdx Cert.RowDot Cert.GatedMix Cert.LogSoftmax

/-- Score c of a row of D features:  the row against row c of the weights, plus bias c. -/
def logit {D C : Nat} (row : Fin D → EReal) (W : (⟨2, ![C, D]⟩ : Shape).Idx → EReal)
    (b : (⟨1, ![C]⟩ : Shape).Idx → EReal) (c : Fin C) : EReal :=
  rowDotT row W c + b (ix1 c)

/-- The log-softmax of every row's scores. -/
def classify {M D C : Nat} (h : (⟨2, ![M, D]⟩ : Shape).Idx → EReal) (W : (⟨2, ![C, D]⟩ : Shape).Idx → EReal)
    (b : (⟨1, ![C]⟩ : Shape).Idx → EReal) : (⟨2, ![M, C]⟩ : Shape).Idx → EReal :=
  fun j => logSoftmax (logit (rowOf h (j 0)) W b) (j 1)

/-- Entry y of the function of h' is entry i of the function of h when row (y 0) of h' is row (i 0) of h and the two
    indices name the same class. -/
theorem classify_block {M M' D C : Nat} (h : (⟨2, ![M, D]⟩ : Shape).Idx → EReal) (h' : (⟨2, ![M', D]⟩ : Shape).Idx → EReal)
    (W : (⟨2, ![C, D]⟩ : Shape).Idx → EReal) (b : (⟨1, ![C]⟩ : Shape).Idx → EReal)
    (y : (⟨2, ![M', C]⟩ : Shape).Idx) (i : (⟨2, ![M, C]⟩ : Shape).Idx)
    (hrow : ∀ d : Fin D, h' (ix2 (y 0) d) = h (ix2 (i 0) d)) (hcol : (i 1).val = (y 1).val) :
    classify h' W b y = classify h W b i := by
  have e0 : rowOf h' (y 0) = rowOf h (i 0) := funext hrow
  have e1 : (y 1 : Fin C) = (i 1 : Fin C) := Fin.ext hcol.symm
  show logSoftmax (logit (rowOf h' (y 0)) W b) (y 1) = logSoftmax (logit (rowOf h (i 0)) W b) (i 1)
  exact congrArg₂ (fun (r : Fin D → EReal) (q : Fin C) => logSoftmax (logit r W b) q) e0 e1

end Cert.DenseTail

end
-- ==== Proof.KernelBody.lean ====
/-
  What the kernel's body stores for one block of 2000 rows:  the dense tail of that block.

  The body casts the block of features and the weights to a narrower format (the identity at the exact values),
  multiplies the block by the weights contracted on their last axis into zero, adds the bias spread over the rows,
  and takes the log-softmax along the 40 lanes in the vector unit's spelling.  Read at (p, q) that is
  classify (block) W b (p, q).
-/
import proofs.«119922_j77129022701608_1_alg».proof.Proof.Gen.KernelIdeal.Skeleton
import proofs.«119922_j77129022701608_1_alg».proof.Proof.Spec
import Idealize.ShloMosaic.Lib.ValueLayout

noncomputable section

open scoped BigOperators

namespace Cert.KernelIdeal.Body

open Idealize.ShloMosaic Idealize.ShloMosaic.ValueIdx Cert.KernelIdeal Cert.KernelIdeal.Gen
open Cert.RowDot Cert.GatedMix Cert.LogSoftmax Cert.DenseTail

/-- The block's scores as the body computes them. -/
def blockLogits (x0 : Vec Ideal S2000x64 .f32) (x1 : Vec Ideal S40x64 .f32) (x2 : Vec Ideal S40 .f32) : FVec Ideal S2000x40 .f32 :=
  addf (matmul dot_S2000x64_S40x64_S2000x40_1_1_0_0_n_n none
      (truncf .bf16 (shapeCast S2000x64 x0 shapeCasts_S2000x64_S2000x64) bitsLt_bf16_f32) (truncf .bf16 x1 bitsLt_bf16_f32)
      (constant S2000x40 .f32 0x00000000#32))
    (broadcastTo S2000x40 (shapeCast S1x40 x2 shapeCasts_S40_S1x40) broadcasts_S1x40_S2000x40)

/-- The stored value is the vector unit's log-softmax of those scores. -/
theorem payload_shape (x0 : Vec Ideal S2000x64 .f32) (x1 : Vec Ideal S40x64 .f32) (x2 : Vec Ideal S40 .f32) :
    k0_pay1 (F := Ideal) x0 x1 x2
      = vectorForm (blockLogits x0 x1 x2) reduces_S2000x40_S2000 (.inl rfl)
          (rfl : (0xFF800000#32 : BitVec 32) = FKind.maximumf.neutral .f32 (.inl rfl))
          (rfl : (0x00000000#32 : BitVec 32) = FKind.add.neutral .f32 (.inl rfl))
          shapeCasts_S2000_S2000x1 broadcasts_S2000x1_S2000x40 :=
  rfl

/-- Score (p, c) of the block:  row p against row c of the weights, plus bias c. -/
theorem blockLogits_apply (x0 : Vec Ideal S2000x64 .f32) (x1 : Vec Ideal S40x64 .f32) (x2 : Vec Ideal S40 .f32)
    (p : Fin 2000) (c : Fin 40) : blockLogits x0 x1 x2 (ix2 p c) = logit (rowOf x0 p) x1 x2 c := by
  unfold blockLogits logit
  rw [addf_apply, broadcastTo_1b_ab_apply, shapeCast_a_1a_apply, shapeCast_self]
  refine congrArg (· + x2 (ix1 c)) ?_
  exact matmul_transposed_zero_apply (M := 2000) (K := 64) (N := 40) none _ _ (ix2 p c)

/-- The stored block is the dense tail of the loaded block. -/
theorem payload_eq (x0 : Vec Ideal S2000x64 .f32) (x1 : Vec Ideal S40x64 .f32) (x2 : Vec Ideal S40 .f32) :
    k0_pay1 (F := Ideal) x0 x1 x2 = classify x0 x1 x2 := by
  funext j
  obtain ⟨p, q, rfl⟩ : ∃ (p : Fin 2000) (q : Fin 40), j = ix2 p q := ⟨j 0, j 1, eq_ix2 j⟩
  refine (congrFun (payload_shape x0 x1 x2) (ix2 p q)).trans ?_
  refine (vectorForm_apply (blockLogits x0 x1 x2) _ _ _ _ _ _ p q).trans ?_
  exact congrArg (fun f => logSoftmax f q) (funext (blockLogits_apply x0 x1 x2 p))

end Cert.KernelIdeal.Body

end
-- ==== Proof.Blocks.lean ====
/-
  From the 50 blocks to the whole output array.

  Grid point t stages rows 2000·t … 2000·t + 1999 of the features (all 64 columns), the whole weight table and the
  whole bias, and writes back rows 2000·t … 2000·t + 1999 of the output (all 40 columns).  The body stores the dense
  tail of its block, and the dense tail's entry (p, q) depends on the features through row p only, so what point t
  writes back is block t of the dense tail of the whole array.  The 50 blocks cover every row (row r lies in block
  r / 2000), so after the run the output array is the dense tail of the array the region found.
-/
import proofs.«119922_j77129022701608_1_alg».proof.Proof.Gen.KernelIdeal.Value
import proofs.«119922_j77129022701608_1_alg».proof.Proof.KernelBody

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.DenseTail

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The whole output array:  the dense tail of the features, weights and bias as the region finds them. -/
def whole (c : Dev nD) : S100000x40.Idx → EReal :=
  classify (M := 100000) (D := 64) (C := 40) (V m c (Pipeline.arrRef spec0 0)) (V m c (Pipeline.arrRef spec0 1))
    (V m c (Pipeline.arrRef spec0 2))

/-- The printed index maps over the 50 points:  point t's feature block and output block are block t along the rows and
    block 0 along the columns;  the weights' and the bias's block is always block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- For any three arrays:  the dense tail of point t's blocks of them, seen through the output window, is block t of
    the dense tail of the arrays.  The weights' and the bias's blocks are the whole arrays (block 0 of one);  row y of the
    feature block is row 2000·t + y of the features, which is the row the output block's entry (y, ·) sits in. -/
theorem block_of_whole (H : S100000x64.Idx → EReal) (W : S40x64.Idx → EReal) (B : S40.Idx → EReal) (t : Fin cfg0.N) :
    (cfg0.win 3).cut (grid0.coords t)
        (classify (M := 2000) (D := 64) (C := 40) (((cfg0.win 0).blk t).view.read (Elt Ideal) H)
          (((cfg0.win 1).blk t).view.read (Elt Ideal) W) (((cfg0.win 2).blk t).view.read (Elt Ideal) B))
      = ((cfg0.win 3).blk t).view.read (Elt Ideal) (classify (M := 100000) (D := 64) (C := 40) H W B) := by
  obtain ⟨f0, f1, w0, w1, b0, o0, o1⟩ := index_facts t
  have hW : (((cfg0.win 1).blk t).view.read (Elt Ideal) W : S40x64.Idx → EReal) = W := by
    funext y
    show W (((cfg0.win 1).blk t).view.emb y) = W y
    refine congrArg W (funext fun a => Fin.ext ?_)
    match a with
    | ⟨0, _⟩ => show win0_1.index t (0 : Fin 2) * 40 + 1 * (y 0).val = (y 0).val; omega
    | ⟨1, _⟩ => show win0_1.index t (1 : Fin 2) * 64 + 1 * (y 1).val = (y 1).val; omega
  have hB : (((cfg0.win 2).blk t).view.read (Elt Ideal) B : S40.Idx → EReal) = B := by
    funext y
    show B (((cfg0.win 2).blk t).view.emb y) = B y
    refine congrArg B (funext fun a => Fin.ext ?_)
    match a with
    | ⟨0, _⟩ => show win0_2.index t (0 : Fin 1) * 40 + 1 * (y 0).val = (y 0).val; omega
  funext y
  show classify (M := 2000) (D := 64) (C := 40) (((cfg0.win 0).blk t).view.read (Elt Ideal) H)
      (((cfg0.win 1).blk t).view.read (Elt Ideal) W) (((cfg0.win 2).blk t).view.read (Elt Ideal) B) y
    = classify (M := 100000) (D := 64) (C := 40) H W B (((cfg0.win 3).blk t).view.emb y)
  rw [hW, hB]
  refine classify_block (M := 100000) (M' := 2000) (D := 64) (C := 40) H (((cfg0.win 0).blk t).view.read (Elt Ideal) H) W B
    y (((cfg0.win 3).blk t).view.emb y) (fun d => ?_) ?_
  · show H (((cfg0.win 0).blk t).view.emb (ix2 (y 0) d)) = H (ix2 ((((cfg0.win 3).blk t).view.emb y) 0) d)
    refine congrArg H (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 64 + 1 * d.val = d.val; omega
  · show win0_3.index t (1 : Fin 2) * 40 + 1 * (y 1).val = (y 1).val
    omega

/-- What point t writes back is block t of the whole output array. -/
theorem flushed_eq (c : Dev nD) (t : Fin cfg0.N) :
    (dats m 0 c).flushed 3 t = ((cfg0.win 3).blk t).view.read (Elt Ideal) (whole m c) := by
  rw [Value.flushed3]
  unfold out0_3
  rw [View.canon_unit_zero origin2]
  simp only [View.ld_unit_zero (S := S2000x64) origin2, View.ld_unit_zero (S := S40x64) origin2, View.ld_unit_zero (S := S40) origin1]
  rw [Body.payload_eq]
  exact block_of_whole (V m c (Pipeline.arrRef spec0 0)) (V m c (Pipeline.arrRef spec0 1)) (V m c (Pipeline.arrRef spec0 2)) t

/-- An index of the output array is in point t's block iff each coordinate is in the block's range on its axis. -/
theorem mem_blk (t : Fin cfg0.N) (i : S100000x40.Idx) :
    i ∈ ((cfg0.win 3).blk t).view.set ↔ ∀ a : Fin 2, win0_3.index t a * S2000x40.size a ≤ (i a).val ∧ (i a).val < win0_3.index t a * S2000x40.size a + S2000x40.size a := by
  show i ∈ ((View.whole main_v70).slice (win0_3.rect t)).set ↔ _
  rw [View.set_slice_whole, Rect.mem_set_unit]
  exact Iff.rfl

/-- Every index of the output array is in some point's block:  row r is in block r / 2000. -/
theorem cover (i : S100000x40.Idx) : ∃ t : Fin cfg0.N, (cfg0.win 3).flush t = true ∧ i ∈ ((cfg0.win 3).blk t).view.set := by
  have hi0 : (i 0).val < 100000 := (i 0).isLt
  have hi1 : (i 1).val < 40 := (i 1).isLt
  let t : Fin cfg0.N := ⟨(i 0).val / 2000, by show (i 0).val / 2000 < 50; omega⟩
  have ht : t.val = (i 0).val / 2000 := rfl
  obtain ⟨-, -, -, -, -, o0, o1⟩ := index_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 40 ≤ (i 1).val ∧ (i 1).val < win0_3.index t (1 : Fin 2) * 40 + 40; omega

/-- After the run the output array is the dense tail of what the region found. -/
theorem final (c : Dev nD) : (dats m 0 c).arrAt 3 cfg0.N = whole m c :=
  (dats m 0 c).arrAt_eq_of_cover 3 (whole m c) (fun t _ => flushed_eq m c t) (cover)

/-- The kernel's run, with the output array named as one function of the arrays at region entry. -/
theorem run : θ_run defs (onTc (τ := τ) (main (F := Ideal))) ⟨m, fun _ => 0, ρ⟩ fun r => ∀ c : Dev nD,
      r.2.mem ((c : Thread nD τ).loc main_v70) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.Glue.lean ====
/-
  The host code both programs run before the dense tail: K = 3 rounds of normalized neighbourhood averaging
  on a graph with self loops.

  The edge list e (2 × E integers) gives source and destination of each edge; N self loops (i, i) are appended to
  both lists.  The degree of node i is the number of list entries whose destination is i, its weight is
  deg(i)^(-1/2) where deg(i) > 0 and 0 elsewhere, the weight of an edge is the product of its two endpoints'
  weights (times an array of ones), and one round replaces the features h by
      h'(i, ·) = Σ over entries with destination i of  weight(entry) · h(source(entry), ·).
  A negative index is first moved up by N, as the host's indexing does.  The kernel's program and the reference
  spell these operations identically, so all that is needed of them is this one term:  nothing here is opened
  by the proof.
-/
import proofs.«119922_j77129022701608_1_alg».proof.Proof.Gen.ReferenceIdeal
import Idealize.ShloMosaic.PureOps.Ideal

noncomputable section

namespace Cert.Glue

open Idealize.ShloMosaic Cert.ReferenceIdeal Cert.ReferenceIdeal.Gen

/-- Node features, N × 64. -/
abbrev Feat : Type := FVec Ideal S100000x64 .f32
/-- The edge list, 2 × E. -/
abbrev Edges : Type := IVec S2x1280000 32
/-- One integer per list entry (E edges then N self loops). -/
abbrev Entries : Type := IVec S1380000 32
/-- One number per list entry. -/
abbrev EntryVals : Type := FVec Ideal S1380000 .f32
/-- One number per node. -/
abbrev NodeVals : Type := FVec Ideal S100000 .f32

/-- The sources: row 0 of the edge list, then 0, 1, …, N−1. -/
def sources (e : Edges) : Entries :=
  concatenate S1380000 0 [⟨S1280000, (shapeCast _ (extractStridedSlice S1x1280000 ![0, 0] e slices_S2x1280000_S1x1280000_0_0) shapeCasts_S1x1280000_S1280000)⟩, ⟨S100000, (iotaInDim S100000 32 0)⟩] concatenates_S1280000_S100000_S1380000_d0

/-- The destinations: row 1 of the edge list, then 0, 1, …, N−1. -/
def dests (e : Edges) : Entries :=
  concatenate S1380000 0 [⟨S1280000, (shapeCast _ (extractStridedSlice S1x1280000 ![1, 0] e slices_S2x1280000_S1x1280000_1_0) shapeCasts_S1x1280000_S1280000)⟩, ⟨S100000, (iotaInDim S100000 32 0)⟩] concatenates_S1280000_S100000_S1380000_d0

/-- One per list entry. -/
def ones : EntryVals := broadcastInDim S1380000 ![] bcast_S_S1380000 (constant (F := Ideal) S_ .f32 0x3F800000#32)

/-- Zero per node. -/
def zeros : NodeVals := broadcastInDim S100000 ![] bcast_S_S100000 (constant (F := Ideal) S_ .f32 0x00000000#32)

/-- A per-entry list as the one-column index (or value) array the gathers and scatters take. -/
def asColumn {α : Type} (v : S1380000.Idx → α) : S1380000x1.Idx → α :=
  broadcastInDim S1380000x1 ![0] bcast_S1380000_S1380000x1_0 v

/-- The degree of each node: ones added up at the destinations. -/
def degree (e : Edges) : NodeVals :=
  Host.scatterAdd (F := Ideal) scatter_S100000_S1380000x1_S1380000_n_0_0_1 zeros (asColumn (dests e)) ones

/-- deg^(-1/2) where the degree is positive, 0 elsewhere. -/
def invSqrtDegree (e : Edges) : NodeVals :=
  select (cmpf (F := Ideal) .ogt (degree e) zeros) (Host.rsqrt (F := Ideal) (degree e))
    (broadcastInDim S100000 ![] bcast_S_S100000 (id (constant (F := Ideal) S_ .f32 0x00000000#32)))

/-- A negative index moved up by N. -/
def wrap (i : Entries) : Entries :=
  select (cmpi .slt i (broadcastInDim S1380000 ![] bcast_S_S1380000 (constantI S_ 32 0#32)))
    (addi i (broadcastInDim S1380000 ![] bcast_S_S1380000 (constantI S_ 32 100000#32))) i

/-- The weight of each list entry: the product of its endpoints' weights. -/
def entryWeight (e : Edges) : EntryVals :=
  mulf (F := Ideal) (mulf (F := Ideal) (Host.gather gather_S100000_S1380000x1_S1380000_n_0_n_n_0_1_1 (invSqrtDegree e) (asColumn (wrap (sources e)))) ones)
    (Host.gather gather_S100000_S1380000x1_S1380000_n_0_n_n_0_1_1 (invSqrtDegree e) (asColumn (wrap (dests e))))

/-- One round: each entry's source row, scaled by the entry's weight, added up at the entry's destination. -/
def hop (e : Edges) (h : Feat) : Feat :=
  Host.scatterAdd (F := Ideal) scatter_S100000x64_S1380000x1_S1380000x64_1_0_0_1
    (broadcastInDim S100000x64 ![] bcast_S_S100000x64 (constant (F := Ideal) S_ .f32 0x00000000#32))
    (asColumn (dests e))
    (mulf (F := Ideal) (broadcastInDim S1380000x64 ![0, 1] bcast_S1380000x1_S1380000x64_0_1 (asColumn (entryWeight e)))
      (Host.gather gather_S100000x64_S1380000x1_S1380000x64_1_0_n_n_0_1_164 h (asColumn (wrap (sources e)))))

/-- Three rounds. -/
def propagate (x : Feat) (e : Edges) : Feat := hop e (hop e (hop e x))

end Cert.Glue

end
-- ==== Proof.KernelEntry.lean ====
/-
  What the kernel's region finds in its feature window's array:  the three rounds of neighbourhood averaging of the
  argument features along the argument edge list — the host operations before the region, composed.
-/
import proofs.«119922_j77129022701608_1_alg».proof.Proof.Gen.KernelIdeal.Frame
import proofs.«119922_j77129022701608_1_alg».proof.Proof.Glue
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The called selection (deg > 0 ? deg^(-1/2) : 0), with the buffers' type transports removed:  each transport is along
    an equation between a buffer's declared type and the value's type, which are the same type, so it is the identity. -/
theorem where_call (C : IVec S100000 1) (R : FVec Ideal S100000 .f32) (K : FVec Ideal S_ .f32)
    (a1 : main_v14.ty = ⟨S100000, .f32⟩) (a2 : main_v14.space ≠ .host) (a3 : main_v14.isScoped = false)
    (b1 : main_v12.ty = ⟨S100000, .i1⟩) (b2 : main_v12.space ≠ .host) (b3 : main_v12.isScoped = false)
    (c1 : main_v13.ty = ⟨S100000, .f32⟩) (c2 : main_v13.space ≠ .host) (c3 : main_v13.isScoped = false)
    (d1 : main_call0_v1.ty = ⟨S100000, .f32⟩) (d2 : main_call0_v1.space ≠ .host) (d3 : main_call0_v1.isScoped = false)
    (e1 : main_call0_v0.ty = ⟨S_, .f32⟩) (e2 : main_call0_v0.space ≠ .host) (e3 : main_call0_v0.isScoped = false)
    (f1 : main_cst_2.ty = ⟨S_, .f32⟩) (f2 : main_cst_2.space ≠ .host) (f3 : main_cst_2.isScoped = false) :
    (TRef.of main_v14 a1 a2 a3).toBuf (Val := Elt Ideal)
      (select ((TRef.of main_v12 b1 b2 b3).ofBuf (Val := Elt Ideal) C) ((TRef.of main_v13 c1 c2 c3).ofBuf (Val := Elt Ideal) R)
        ((TRef.of main_call0_v1 d1 d2 d3).ofBuf (Val := Elt Ideal) ((TRef.of main_call0_v1 d1 d2 d3).toBuf (Val := Elt Ideal)
          (broadcastInDim S100000 ![] bcast_S_S100000
            ((TRef.of main_call0_v0 e1 e2 e3).ofBuf (Val := Elt Ideal) ((TRef.of main_call0_v0 e1 e2 e3).toBuf (Val := Elt Ideal)
              (id ((TRef.of main_cst_2 f1 f2 f3).ofBuf (Val := Elt Ideal) K))))))))
      = select C R (broadcastInDim S100000 ![] bcast_S_S100000 (id K)) :=
  rfl

set_option maxRecDepth 8192 in
set_option maxHeartbeats 40000000 in
/-- The array the feature window stages is the propagated features. -/
theorem features_at_entry (c : Dev nD) :
    (V (F := Ideal) m c main_v69 : Cert.Glue.Feat)
      = Cert.Glue.propagate (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  repeat (first
    | rw [nullary_result] | rw [unary_result] | rw [reshape_result]
    | (rw [binary_result_ne]; rotate_left; decide)
    | (rw [nullary_result_ne]; rotate_left; decide)
    | (rw [unary_result_ne]; rotate_left; decide)
    | (rw [reshape_result_ne]; rotate_left; decide))
  rw [where_call]
  rfl

end Cert.KernelIdeal.Entry

end
-- ==== Proof.RefTail.lean ====
/-
  The reference's dense tail is the dense tail.

  The host multiplies the features by the transposed weights — entry (p, c) is Σ_k h(p, k) · Wᵀ(k, c), and
  Wᵀ(k, c) = W(c, k) —, adds the bias placed on a row and spread over the rows, and applies the log-softmax in the
  host's spelling.  Entry by entry that is classify h W b.
-/
import proofs.«119922_j77129022701608_1_alg».proof.Proof.Gen.ReferenceIdeal
import proofs.«119922_j77129022701608_1_alg».proof.Proof.Glue
import proofs.«119922_j77129022701608_1_alg».proof.Proof.Spec
import Idealize.ShloMosaic.Lib.ValueLayout

noncomputable section

open scoped BigOperators

namespace Cert.ReferenceIdeal.Tail

open Cert.ReferenceIdeal Cert.ReferenceIdeal.Gen Idealize.ShloMosaic Idealize.ShloMosaic.ValueIdx
open Cert.RowDot Cert.GatedMix Cert.LogSoftmax Cert.DenseTail

/-- The scores in the host's spelling:  features times the transposed weights, plus the bias spread over the rows. -/
def scores (h : Cert.Glue.Feat) (W : FVec Ideal S40x64 .f32) (b : FVec Ideal S40 .f32) : FVec Ideal S100000x40 .f32 :=
  addf (F := Ideal) (Host.dotGeneral (F := Ideal) dot_S100000x64_S64x40_S100000x40_1_0_0_1_n_n none h
      (transpose S64x40 [1, 0] W transposes_S40x64_S64x40_1_0))
    (broadcastInDim S100000x40 ![0, 1] bcast_S1x40_S100000x40_0_1 (broadcastInDim S1x40 ![1] bcast_S40_S1x40_1 b))

/-- The dense tail in the host's spelling:  the host's log-softmax of the scores along the classes. -/
def tail (h : Cert.Glue.Feat) (W : FVec Ideal S40x64 .f32) (b : FVec Ideal S40 .f32) : FVec Ideal S100000x40 .f32 :=
  hostForm (M := 100000) (C := 40) (scores h W b)
    reducesTo_S100000x40_S100000_d1 h_S_ bcast_S_S100000 bcast_S100000_S100000x1_0 bcast_S100000x1_S100000x40_0_1

/-- Score (p, c):  row p of the features against row c of the weights, plus bias c. -/
theorem scores_apply (h : Cert.Glue.Feat) (W : FVec Ideal S40x64 .f32) (b : FVec Ideal S40 .f32) (p : Fin 100000) (c : Fin 40) :
    scores h W b (ix2 p c) = logit (rowOf h p) W b c := by
  unfold scores logit
  rw [addf_apply]
  refine congrArg₂ (fun u v : EReal => u + v) ?_ ?_
  · refine (dotGeneral_plain_apply (M := 100000) (K := 64) (N := 40) none .single h _ (ix2 p c)).trans ?_
    unfold rowDot rowDotT
    refine Finset.sum_congr rfl fun k _ => ?_
    rw [transpose_ix2_apply]
  · refine (broadcastInDim_apply _ bcast_S1x40_S100000x40_0_1 _ (ix2 p c) (ix2 (0 : Fin 1) c) (fun a => match a with
      | ⟨0, _⟩ => by show 0 = if (1 : Nat) = 1 then 0 else p.val; rw [if_pos rfl]
      | ⟨1, _⟩ => by show c.val = if (40 : Nat) = 1 then 0 else c.val; rw [if_neg (by decide)])).trans ?_
    exact broadcastInDim_apply _ bcast_S40_S1x40_1 b (ix2 (0 : Fin 1) c) (ix1 c) (fun a => match a with
      | ⟨0, _⟩ => by show c.val = if (40 : Nat) = 1 then 0 else c.val; rw [if_neg (by decide)])

/-- The host's tail is the dense tail, entry by entry. -/
theorem tail_eq (h : Cert.Glue.Feat) (W : FVec Ideal S40x64 .f32) (b : FVec Ideal S40 .f32) :
    tail h W b = classify (M := 100000) (D := 64) (C := 40) h W b := by
  funext i
  obtain ⟨p, q, rfl⟩ : ∃ (p : Fin 100000) (q : Fin 40), i = ix2 p q := ⟨i 0, i 1, eq_ix2 i⟩
  unfold tail
  refine (hostForm_apply (scores h W b) reducesTo_S100000x40_S100000_d1 (by decide) h_S_ _ _ _ p q).trans ?_
  exact congrArg (fun f => logSoftmax f q) (funext (scores_apply h W b p))

end Cert.ReferenceIdeal.Tail

end
-- ==== Proof.RefRun.lean ====
/-
  The reference's run, read back.

  The reference is a straight line of 109 host operations:  the 89 of the neighbourhood averaging (the same as the
  kernel's program runs before its region), then the transpose of the weights, the product of the features with it,
  the bias spread over the rows and added, and the log-softmax in the host's spelling.  Every weakly fair execution
  runs them in order, so the result buffer ends holding the composition of their functions applied to the argument
  arrays:  tail (propagate x e) W b.
-/
import proofs.«119922_j77129022701608_1_alg».proof.Proof.Gen.ReferenceIdeal
import proofs.«119922_j77129022701608_1_alg».proof.Proof.Glue
import proofs.«119922_j77129022701608_1_alg».proof.Proof.RefTail
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 109 operations, in order (the operations of a called function stand in the call's place). -/
abbrev ops : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg1 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_v4 (iotaInDim S100000 32 0),
    binary main_v1 main_v4 main_v5 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    binary main_v3 main_v4 main_v6 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    nullary main_cst (constant S_ .f32 0x3F800000#32),
    unary main_cst main_v7 (broadcastInDim S1380000 ![] bcast_S_S1380000 : (⟨S_, .f32⟩ : BufTy).Contents (Elt F) → (⟨S1380000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1380000x1 ![0] bcast_S1380000_S1380000x1_0 : (⟨S1380000, .i32⟩ : BufTy).Contents (Elt F) → (⟨S1380000x1, .i32⟩ : BufTy).Contents (Elt F)),
    ternary main_v8 main_v9 main_v7 main_v10 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1380000 ![] bcast_S_S1380000 : (⟨S_, .i32⟩ : BufTy).Contents (Elt F) → (⟨S1380000, .i32⟩ : BufTy).Contents (Elt F)),
    binary main_v5 main_v15 main_v16 (cmpi .slt : (⟨S1380000, .i32⟩ : BufTy).Contents (Elt F) → (⟨S1380000, .i32⟩ : BufTy).Contents (Elt F) → (⟨S1380000, .i1⟩ : BufTy).Contents (Elt F)),
    nullary main_c_3 (constantI S_ 32 100000#32),
    unary main_c_3 main_v17 (broadcastInDim S1380000 ![] bcast_S_S1380000 : (⟨S_, .i32⟩ : BufTy).Contents (Elt F) → (⟨S1380000, .i32⟩ : BufTy).Contents (Elt F)),
    binary main_v5 main_v17 main_v18 (addi : (⟨S1380000, .i32⟩ : BufTy).Contents (Elt F) → (⟨S1380000, .i32⟩ : BufTy).Contents (Elt F) → (⟨S1380000, .i32⟩ : BufTy).Contents (Elt F)),
    ternary main_v16 main_v18 main_v5 main_v19 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v19 main_v20 (broadcastInDim S1380000x1 ![0] bcast_S1380000_S1380000x1_0 : (⟨S1380000, .i32⟩ : BufTy).Contents (Elt F) → (⟨S1380000x1, .i32⟩ : BufTy).Contents (Elt F)),
    binary main_v14 main_v20 main_v21 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v21 main_v7 main_v22 (mulf : (⟨S1380000, .f32⟩ : BufTy).Contents (Elt F) → (⟨S1380000, .f32⟩ : BufTy).Contents (Elt F) → (⟨S1380000, .f32⟩ : BufTy).Contents (Elt F)),
    nullary main_c_4 (constantI S_ 32 0#32),
    unary main_c_4 main_v23 (broadcastInDim S1380000 ![] bcast_S_S1380000 : (⟨S_, .i32⟩ : BufTy).Contents (Elt F) → (⟨S1380000, .i32⟩ : BufTy).Contents (Elt F)),
    binary main_v6 main_v23 main_v24 (cmpi .slt : (⟨S1380000, .i32⟩ : BufTy).Contents (Elt F) → (⟨S1380000, .i32⟩ : BufTy).Contents (Elt F) → (⟨S1380000, .i1⟩ : BufTy).Contents (Elt F)),
    nullary main_c_5 (constantI S_ 32 100000#32),
    unary main_c_5 main_v25 (broadcastInDim S1380000 ![] bcast_S_S1380000 : (⟨S_, .i32⟩ : BufTy).Contents (Elt F) → (⟨S1380000, .i32⟩ : BufTy).Contents (Elt F)),
    binary main_v6 main_v25 main_v26 (addi : (⟨S1380000, .i32⟩ : BufTy).Contents (Elt F) → (⟨S1380000, .i32⟩ : BufTy).Contents (Elt F) → (⟨S1380000, .i32⟩ : BufTy).Contents (Elt F)),
    ternary main_v24 main_v26 main_v6 main_v27 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v27 main_v28 (broadcastInDim S1380000x1 ![0] bcast_S1380000_S1380000x1_0 : (⟨S1380000, .i32⟩ : BufTy).Contents (Elt F) → (⟨S1380000x1, .i32⟩ : BufTy).Contents (Elt F)),
    binary main_v14 main_v28 main_v29 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v22 main_v29 main_v30 (mulf : (⟨S1380000, .f32⟩ : BufTy).Contents (Elt F) → (⟨S1380000, .f32⟩ : BufTy).Contents (Elt F) → (⟨S1380000, .f32⟩ : BufTy).Contents (Elt F)),
    unary main_v30 main_v31 (broadcastInDim S1380000x1 ![0] bcast_S1380000_S1380000x1_0 : (⟨S1380000, .f32⟩ : BufTy).Contents (Elt F) → (⟨S1380000x1, .f32⟩ : BufTy).Contents (Elt F)),
    nullary main_c_6 (constantI S_ 32 0#32),
    unary main_c_6 main_v32 (broadcastInDim S1380000 ![] bcast_S_S1380000 : (⟨S_, .i32⟩ : BufTy).Contents (Elt F) → (⟨S1380000, .i32⟩ : BufTy).Contents (Elt F)),
    binary main_v5 main_v32 main_v33 (cmpi .slt : (⟨S1380000, .i32⟩ : BufTy).Contents (Elt F) → (⟨S1380000, .i32⟩ : BufTy).Contents (Elt F) → (⟨S1380000, .i1⟩ : BufTy).Contents (Elt F)),
    nullary main_c_7 (constantI S_ 32 100000#32),
    unary main_c_7 main_v34 (broadcastInDim S1380000 ![] bcast_S_S1380000 : (⟨S_, .i32⟩ : BufTy).Contents (Elt F) → (⟨S1380000, .i32⟩ : BufTy).Contents (Elt F)),
    binary main_v5 main_v34 main_v35 (addi : (⟨S1380000, .i32⟩ : BufTy).Contents (Elt F) → (⟨S1380000, .i32⟩ : BufTy).Contents (Elt F) → (⟨S1380000, .i32⟩ : BufTy).Contents (Elt F)),
    ternary main_v33 main_v35 main_v5 main_v36 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v36 main_v37 (broadcastInDim S1380000x1 ![0] bcast_S1380000_S1380000x1_0 : (⟨S1380000, .i32⟩ : BufTy).Contents (Elt F) → (⟨S1380000x1, .i32⟩ : BufTy).Contents (Elt F)),
    binary main_arg0 main_v37 main_v38 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)),
    unary main_v31 main_v39 (broadcastInDim S1380000x64 ![0, 1] bcast_S1380000x1_S1380000x64_0_1 : (⟨S1380000x1, .f32⟩ : BufTy).Contents (Elt F) → (⟨S1380000x64, .f32⟩ : BufTy).Contents (Elt F)),
    binary main_v39 main_v38 main_v40 (mulf : (⟨S1380000x64, .f32⟩ : BufTy).Contents (Elt F) → (⟨S1380000x64, .f32⟩ : BufTy).Contents (Elt F) → (⟨S1380000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1380000x1 ![0] bcast_S1380000_S1380000x1_0 : (⟨S1380000, .i32⟩ : BufTy).Contents (Elt F) → (⟨S1380000x1, .i32⟩ : BufTy).Contents (Elt F)),
    ternary main_v41 main_v42 main_v40 main_v43 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)),
    unary main_v30 main_v44 (broadcastInDim S1380000x1 ![0] bcast_S1380000_S1380000x1_0 : (⟨S1380000, .f32⟩ : BufTy).Contents (Elt F) → (⟨S1380000x1, .f32⟩ : BufTy).Contents (Elt F)),
    nullary main_c_9 (constantI S_ 32 0#32),
    unary main_c_9 main_v45 (broadcastInDim S1380000 ![] bcast_S_S1380000 : (⟨S_, .i32⟩ : BufTy).Contents (Elt F) → (⟨S1380000, .i32⟩ : BufTy).Contents (Elt F)),
    binary main_v5 main_v45 main_v46 (cmpi .slt : (⟨S1380000, .i32⟩ : BufTy).Contents (Elt F) → (⟨S1380000, .i32⟩ : BufTy).Contents (Elt F) → (⟨S1380000, .i1⟩ : BufTy).Contents (Elt F)),
    nullary main_c_10 (constantI S_ 32 100000#32),
    unary main_c_10 main_v47 (broadcastInDim S1380000 ![] bcast_S_S1380000 : (⟨S_, .i32⟩ : BufTy).Contents (Elt F) → (⟨S1380000, .i32⟩ : BufTy).Contents (Elt F)),
    binary main_v5 main_v47 main_v48 (addi : (⟨S1380000, .i32⟩ : BufTy).Contents (Elt F) → (⟨S1380000, .i32⟩ : BufTy).Contents (Elt F) → (⟨S1380000, .i32⟩ : BufTy).Contents (Elt F)),
    ternary main_v46 main_v48 main_v5 main_v49 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v49 main_v50 (broadcastInDim S1380000x1 ![0] bcast_S1380000_S1380000x1_0 : (⟨S1380000, .i32⟩ : BufTy).Contents (Elt F) → (⟨S1380000x1, .i32⟩ : BufTy).Contents (Elt F)),
    binary main_v43 main_v50 main_v51 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)),
    unary main_v44 main_v52 (broadcastInDim S1380000x64 ![0, 1] bcast_S1380000x1_S1380000x64_0_1 : (⟨S1380000x1, .f32⟩ : BufTy).Contents (Elt F) → (⟨S1380000x64, .f32⟩ : BufTy).Contents (Elt F)),
    binary main_v52 main_v51 main_v53 (mulf : (⟨S1380000x64, .f32⟩ : BufTy).Contents (Elt F) → (⟨S1380000x64, .f32⟩ : BufTy).Contents (Elt F) → (⟨S1380000x64, .f32⟩ : BufTy).Contents (Elt F)),
    nullary main_cst_11 (constant S_ .f32 0x00000000#32),
    unary main_cst_11 main_v54 (broadcastInDim S100000x64 ![] bcast_S_S100000x64 : (⟨S_, .f32⟩ : BufTy).Contents (Elt F) → (⟨S100000x64, .f32⟩ : BufTy).Contents (Elt F)),
    unary main_v6 main_v55 (broadcastInDim S1380000x1 ![0] bcast_S1380000_S1380000x1_0 : (⟨S1380000, .i32⟩ : BufTy).Contents (Elt F) → (⟨S1380000x1, .i32⟩ : BufTy).Contents (Elt F)),
    ternary main_v54 main_v55 main_v53 main_v56 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)),
    unary main_v30 main_v57 (broadcastInDim S1380000x1 ![0] bcast_S1380000_S1380000x1_0 : (⟨S1380000, .f32⟩ : BufTy).Contents (Elt F) → (⟨S1380000x1, .f32⟩ : BufTy).Contents (Elt F)),
    nullary main_c_12 (constantI S_ 32 0#32),
    unary main_c_12 main_v58 (broadcastInDim S1380000 ![] bcast_S_S1380000 : (⟨S_, .i32⟩ : BufTy).Contents (Elt F) → (⟨S1380000, .i32⟩ : BufTy).Contents (Elt F)),
    binary main_v5 main_v58 main_v59 (cmpi .slt : (⟨S1380000, .i32⟩ : BufTy).Contents (Elt F) → (⟨S1380000, .i32⟩ : BufTy).Contents (Elt F) → (⟨S1380000, .i1⟩ : BufTy).Contents (Elt F)),
    nullary main_c_13 (constantI S_ 32 100000#32),
    unary main_c_13 main_v60 (broadcastInDim S1380000 ![] bcast_S_S1380000 : (⟨S_, .i32⟩ : BufTy).Contents (Elt F) → (⟨S1380000, .i32⟩ : BufTy).Contents (Elt F)),
    binary main_v5 main_v60 main_v61 (addi : (⟨S1380000, .i32⟩ : BufTy).Contents (Elt F) → (⟨S1380000, .i32⟩ : BufTy).Contents (Elt F) → (⟨S1380000, .i32⟩ : BufTy).Contents (Elt F)),
    ternary main_v59 main_v61 main_v5 main_v62 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v62 main_v63 (broadcastInDim S1380000x1 ![0] bcast_S1380000_S1380000x1_0 : (⟨S1380000, .i32⟩ : BufTy).Contents (Elt F) → (⟨S1380000x1, .i32⟩ : BufTy).Contents (Elt F)),
    binary main_v56 main_v63 main_v64 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)),
    unary main_v57 main_v65 (broadcastInDim S1380000x64 ![0, 1] bcast_S1380000x1_S1380000x64_0_1 : (⟨S1380000x1, .f32⟩ : BufTy).Contents (Elt F) → (⟨S1380000x64, .f32⟩ : BufTy).Contents (Elt F)),
    binary main_v65 main_v64 main_v66 (mulf : (⟨S1380000x64, .f32⟩ : BufTy).Contents (Elt F) → (⟨S1380000x64, .f32⟩ : BufTy).Contents (Elt F) → (⟨S1380000x64, .f32⟩ : BufTy).Contents (Elt F)),
    nullary main_cst_14 (constant S_ .f32 0x00000000#32),
    unary main_cst_14 main_v67 (broadcastInDim S100000x64 ![] bcast_S_S100000x64 : (⟨S_, .f32⟩ : BufTy).Contents (Elt F) → (⟨S100000x64, .f32⟩ : BufTy).Contents (Elt F)),
    unary main_v6 main_v68 (broadcastInDim S1380000x1 ![0] bcast_S1380000_S1380000x1_0 : (⟨S1380000, .i32⟩ : BufTy).Contents (Elt F) → (⟨S1380000x1, .i32⟩ : BufTy).Contents (Elt F)),
    ternary main_v67 main_v68 main_v66 main_v69 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)),
    unary main_arg2 main_v70 ((transpose S64x40 [1, 0] · transposes_S40x64_S64x40_1_0) : (⟨S40x64, .f32⟩ : BufTy).Contents (Elt F) → (⟨S64x40, .f32⟩ : BufTy).Contents (Elt F)),
    binary main_v69 main_v70 main_v71 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v72 (broadcastInDim S1x40 ![1] bcast_S40_S1x40_1 : (⟨S40, .f32⟩ : BufTy).Contents (Elt F) → (⟨S1x40, .f32⟩ : BufTy).Contents (Elt F)),
    unary main_v72 main_v73 (broadcastInDim S100000x40 ![0, 1] bcast_S1x40_S100000x40_0_1 : (⟨S1x40, .f32⟩ : BufTy).Contents (Elt F) → (⟨S100000x40, .f32⟩ : BufTy).Contents (Elt F)),
    binary main_v71 main_v73 main_v74 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v74) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v74) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v75) subf ]

set_option maxRecDepth 8192 in
set_option maxHeartbeats 4000000 in
/-- The program is the sequence of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The result buffer's contents after the run, as one function of the argument arrays. -/
def result (m : (ℓ : Loc nD τ sig) → Buf (Elt Ideal) ℓ) (c : Dev nD) : Buf (Elt Ideal) ((c.tc : Thread nD τ).loc main_v75) :=
  Cert.ReferenceIdeal.Tail.tail (Cert.Glue.propagate (m ((c.tc : Thread nD τ).loc main_arg0)) (m ((c.tc : Thread nD τ).loc main_arg1)))
    (m ((c.tc : Thread nD τ).loc main_arg2)) (m ((c.tc : Thread nD τ).loc main_arg3))

/-! ## The type transports of the called functions' buffers

A called function's operation reads its operands and writes its result through a transport along the equation between the
buffer's declared type and the value's type.  These are the same type, so every transport is the identity;  the lemmas
below remove them, over variables, before the composed term is compared with `result`. -/

/-- A value written through a buffer's transport and read back through it is the value. -/
theorem ofBuf_toBuf {T : BufTy} {Val : EltTy → Type} (x : TRef sig T) (v : T.Contents Val) : x.ofBuf (x.toBuf v) = v := by
  obtain ⟨r, h, _, _⟩ := x
  subst h
  rfl

/-- The called selection (deg > 0 ? deg^(-1/2) : 0) without its transports. -/
theorem where_call (C : IVec S100000 1) (R : FVec Ideal S100000 .f32) (K : FVec Ideal S_ .f32)
    (a1 : main_v14.ty = ⟨S100000, .f32⟩) (a2 : main_v14.space ≠ .host) (a3 : main_v14.isScoped = false)
    (b1 : main_v12.ty = ⟨S100000, .i1⟩) (b2 : main_v12.space ≠ .host) (b3 : main_v12.isScoped = false)
    (c1 : main_v13.ty = ⟨S100000, .f32⟩) (c2 : main_v13.space ≠ .host) (c3 : main_v13.isScoped = false)
    (f1 : main_cst_2.ty = ⟨S_, .f32⟩) (f2 : main_cst_2.space ≠ .host) (f3 : main_cst_2.isScoped = false) :
    (TRef.of main_v14 a1 a2 a3).toBuf (Val := Elt Ideal)
      (select ((TRef.of main_v12 b1 b2 b3).ofBuf (Val := Elt Ideal) C) ((TRef.of main_v13 c1 c2 c3).ofBuf (Val := Elt Ideal) R)
        (broadcastInDim S100000 ![] bcast_S_S100000 (id ((TRef.of main_cst_2 f1 f2 f3).ofBuf (Val := Elt Ideal) K))))
      = select C R (broadcastInDim S100000 ![] bcast_S_S100000 (id K)) :=
  rfl

/-- The scores enter the called log-softmax as they are. -/
theorem scores_in (X : FVec Ideal S100000x40 .f32)
    (a1 : main_v74.ty = ⟨S100000x40, .f32⟩) (a2 : main_v74.space ≠ .host) (a3 : main_v74.isScoped = false) :
    (TRef.of main_v74 a1 a2 a3).ofBuf (Val := Elt Ideal) X = X :=
  rfl

/-- Its result leaves as it is. -/
theorem result_out (Z : FVec Ideal S100000x40 .f32)
    (a1 : main_v75.ty = ⟨S100000x40, .f32⟩) (a2 : main_v75.space ≠ .host) (a3 : main_v75.isScoped = false) :
    (TRef.of main_v75 a1 a2 a3).toBuf (Val := Elt Ideal) Z = Z :=
  rfl

set_option maxRecDepth 8192 in
set_option maxHeartbeats 43600000 in
/-- The operations' fold at the result buffer is `result`:  the fold unrolled, each buffer read resolved to the operation
    that wrote it, the transports removed;  what is left is `result`'s definition unfolded. -/
theorem fold_result (m : (ℓ : Loc nD τ sig) → Buf (Elt Ideal) ℓ) (c : Dev nD) :
    after (ops (F := Ideal)) (launchContents m c) (Proc.devRef .tc main_v75) = result m c := by
  after_results_simp
  repeat (first
    | rw [nullary_result] | rw [unary_result] | rw [reshape_result]
    | (rw [binary_result_ne]; rotate_left; decide)
    | (rw [nullary_result_ne]; rotate_left; decide)
    | (rw [unary_result_ne]; rotate_left; decide)
    | (rw [reshape_result_ne]; rotate_left; decide))
  repeat rw [ofBuf_toBuf]
  rw [where_call, scores_in, result_out]
  rfl

set_option maxRecDepth 8192 in
set_option maxHeartbeats 43600000 in
/-- Every weakly fair execution of the reference terminates with the result buffer at `result` and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v75).trans (fold_result m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HandRun

end
-- ==== Proof.lean ====
/-
  A graph-convolution classifier:  three rounds of normalized neighbourhood averaging of the node features (host
  code, the same in both programs), then for every node the log-softmax of an affine score over 40 classes.  The
  kernel computes the dense tail 2000 nodes at a time (a product with the weights contracted on their last axis, the
  bias, a lane maximum, exponentials, a lane sum, a logarithm);  the reference computes it whole (a product with the
  transposed weights, the bias, jax's log_softmax).

  At the exact values both are  classify (propagate x e) W b:
    · the kernel's output array is the dense tail of the array its region finds (the body's block is the dense tail of
      the block, entry (p, q) of the dense tail depends on the features through row p only, and the 50 blocks cover
      the rows), and the region finds propagate x e there;
    · the reference's result is the host's spelling of the dense tail of propagate x e, and the two spellings agree
      entry by entry:  the same sums over the 64 features and the 40 classes, the same fold of max from −∞, the host's
      extra maximum against −∞ the identity.
  Nothing is cancelled or distributed over a sum, so the inputs' finiteness is not used.  The ideal pass rewrote
  nothing, so there is nothing to preserve.
-/
import proofs.«119922_j77129022701608_1_alg».proof.Defs
import proofs.«119922_j77129022701608_1_alg».proof.Proof.Gen.Kernel
import proofs.«119922_j77129022701608_1_alg».proof.Proof.Gen.Kernel.Frame
import proofs.«119922_j77129022701608_1_alg».proof.Proof.Gen.KernelIdeal
import proofs.«119922_j77129022701608_1_alg».proof.Proof.Gen.KernelIdeal.Frame
import proofs.«119922_j77129022701608_1_alg».proof.Proof.Gen.KernelIdeal.Value
import proofs.«119922_j77129022701608_1_alg».proof.Proof.Gen.ReferenceIdeal
import proofs.«119922_j77129022701608_1_alg».proof.Proof.Gen.Pre_finite_inputs
import proofs.«119922_j77129022701608_1_alg».proof.Proof.Blocks
import proofs.«119922_j77129022701608_1_alg».proof.Proof.KernelEntry
import proofs.«119922_j77129022701608_1_alg».proof.Proof.RefRun
import Idealize.ShloMosaic.Adequacy
import Idealize.ShloMosaic.Init

noncomputable section

namespace Cert.Proof

open Idealize.ShloMosaic Idealize.ShloMosaic.TcCoe Idealize.SL.Sem

/-- The three programs run, fault nowhere and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run m ρ)

/-- The kernel's output array and the reference's result are one function of arguments that agree. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.HandRun.result m' c = Cert.KernelIdeal.Blocks.whole m c := by
  have e0 : Cert.KernelIdeal.Gen.V m c (Pipeline.arrRef Cert.KernelIdeal.spec0 0)
      = Cert.Glue.propagate (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    Cert.KernelIdeal.Entry.features_at_entry m c
  have e1 : Cert.KernelIdeal.Gen.V m c (Pipeline.arrRef Cert.KernelIdeal.spec0 1)
      = m ((c.tc : Thread Cert.KernelIdeal.nD Cert.KernelIdeal.τ).loc Cert.KernelIdeal.main_arg2) := Cert.KernelIdeal.Gen.V_main_arg2 m c
  have e2 : Cert.KernelIdeal.Gen.V m c (Pipeline.arrRef Cert.KernelIdeal.spec0 2)
      = m ((c.tc : Thread Cert.KernelIdeal.nD Cert.KernelIdeal.τ).loc Cert.KernelIdeal.main_arg3) := Cert.KernelIdeal.Gen.V_main_arg3 m c
  unfold Cert.ReferenceIdeal.HandRun.result Cert.KernelIdeal.Blocks.whole
  rw [h0, h1, h2, h3, Cert.ReferenceIdeal.Tail.tail_eq, e0, e1, e2]

/-- At the exact values the kernel and the reference, run from memories that agree on the arguments, end with equal
    results. -/
theorem algebraic : Cert.algebraic_KernelIdeal_ReferenceIdeal := by
  intro m ρ m' ρ' _ hagree
  refine ⟨fun c => Cert.KernelIdeal.Blocks.whole m c, Cert.KernelIdeal.Blocks.run m ρ, ?_⟩
  refine (θ_run Cert.ReferenceIdeal.defs _ _).mono (fun _ h c => ⟨(h c).1.trans ?_, (h c).2⟩)
    (Cert.ReferenceIdeal.HandRun.run m' ρ')
  exact results_agree m m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
